-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x2000 : Shape := ⟨2, ![16384, 2000]⟩
abbrev S64x64 : Shape := ⟨2, ![64, 64]⟩
abbrev S2000x64 : Shape := ⟨2, ![2000, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S2000x64 : S_.BroadcastsInDim S2000x64 (![] : Fin 0 → Fin S2000x64.rank)
  reducesTo_S2000x64_S_d0_1 : S2000x64.ReducesTo [0, 1] S_

variable [Facts]

def fn {F : FTy → Type} [FloatOps F] (main_arg0 : FVec F S16384x64 .f32) (main_arg1 : IVec S16384x2000 32) (main_arg2 : FVec F S64x64 .f32) (main_arg3 : FVec F S2000x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S2000x64 .f32 := Host.absf main_arg3
  let main_cst_2 : FVec F S_ .f32 := constant S_ .f32 0x7F800000#32
  let main_v10 : FVec F S2000x64 .f32 := broadcastInDim S2000x64 ![] bcast_S_S2000x64 main_cst_2
  let main_v11 : IVec S2000x64 1 := cmpf .olt main_v9 main_v10
  let main_c_3 : IVec S_ 1 := constantI S_ 1 1#1
  let main_v12 : IVec S_ 1 := (fun x v => Host.reduce IntOp.andi x v reducesTo_S2000x64_S_d0_1 h_S_) main_v11 main_c_3
  let main_v13 : IVec S_ 1 := andi main_v8 main_v12
  main_v13
-- ==== Kernel.lean ====
abbrev S16384x64 : Shape := ⟨2, ![16384, 64]⟩
abbrev S16384x2000 : Shape := ⟨2, ![16384, 2000]⟩
abbrev S64x64 : Shape := ⟨2, ![64, 64]⟩
abbrev S2000x64 : Shape := ⟨2, ![2000, 64]⟩
abbrev S16384 : Shape := ⟨1, ![16384]⟩
abbrev S1024x64 : Shape := ⟨2, ![1024, 64]⟩
abbrev S1024x2000 : Shape := ⟨2, ![1024, 2000]⟩
abbrev S1024 : Shape := ⟨1, ![1024]⟩
abbrev S16384x1 : Shape := ⟨2, ![16384, 1]⟩

abbrev nBuf : Space → Nat
  | .hbm => 8
  | .vmem => 8
  | .smem => 0
  | _ => 0

abbrev bufTy : (tb : Table) → Fin (tcTables nBuf tb) → BufTy
  | .hbm, ⟨0, _⟩ => ⟨S16384x64, .f32⟩
  | .hbm, ⟨1, _⟩ => ⟨S16384x2000, .i32⟩
  | .hbm, ⟨2, _⟩ => ⟨S64x64, .f32⟩
  | .hbm, ⟨3, _⟩ => ⟨S2000x64, .f32⟩
  | .hbm, ⟨4, _⟩ => ⟨S64x64, .bf16⟩
  | .hbm, ⟨5, _⟩ => ⟨S2000x64, .bf16⟩
  | .hbm, ⟨6, _⟩ => ⟨S16384, .f32⟩
  | .hbm, ⟨7, _⟩ => ⟨S16384x1, .f32⟩
  | .local _ .vmem, ⟨0, _⟩ => ⟨S1024x64, .f32⟩
  | .local _ .vmem, ⟨1, _⟩ => ⟨S1024x64, .f32⟩
  | .local _ .vmem, ⟨2, _⟩ => ⟨S1024x2000, .i32⟩
  | .local _ .vmem, ⟨3, _⟩ => ⟨S1024x2000, .i32⟩
  | .local _ .vmem, ⟨4, _⟩ => ⟨S64x64, .bf16⟩
  | .local _ .vmem, ⟨5, _⟩ => ⟨S2000x64, .bf16⟩
  | .local _ .vmem, ⟨6, _⟩ => ⟨S1024, .f32⟩
  | .local _ .vmem, ⟨7, _⟩ => ⟨S1024, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2000x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1024x2000_S1024x2000_0_0 : ∀ a, (![0, 0] : Fin 2 → Nat) a + S1024x2000.size a ≤ S1024x2000.size a
  h_S1024x2000 : 0 < S1024x2000.numel
  natLt_1_32 : 1 < 32
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  reduces_S1024x64_S1024 : S1024x64.Reduces [1] S1024
  inb_S1024_S1024_0 : ∀ a, (![0] : Fin 1 → Nat) a + S1024.size a ≤ S1024.size a
  h_S1024 : 0 < S1024.numel
  bcast_S16384_S16384x1_0 : S16384.BroadcastsInDim S16384x1 (![0] : Fin 1 → Fin S16384x1.rank)
  dot_S1024x64_S64x64_S1024x64_1_0_0_1_n_n_wf : DotDims.WF S1024x64 S64x64 S1024x64 [1] [0] [0] [1] [] []
  dot_S1024x2000_S2000x64_S1024x64_1_0_0_1_n_n_wf : DotDims.WF S1024x2000 S2000x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S16384x64.size a
  hwx0_0 : ∀ i : grid0.Coords, EltTy.bits .f32 = 32 ∨ (Rect.block (s := S16384x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2000.size a ≤ S16384x2000.size a
  hwx0_1 : ∀ i : grid0.Coords, EltTy.bits .i32 = 32 ∨ (Rect.block (s := S16384x2000) S1024x2000.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S2000x64.size a
  hwx0_3 : ∀ i : grid0.Coords, EltTy.bits .bf16 = 32 ∨ (Rect.block (s := S2000x64) S2000x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S16384.size a
  hwx0_4 : ∀ i : grid0.Coords, EltTy.bits .f32 = 32 ∨ (Rect.block (s := S16384) S1024.size (cc0_transform_4 i) (hinb0_4 i)).WholeWords (EltTy.packing .f32)

variable [Facts₀]

def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x2000_S2000x64_S1024x64_1_0_0_1_n_n : DotDims S1024x2000 S2000x64 S1024x64 where
  lhsContracting := [1]
  rhsContracting := [0]
  lhsNonContracting := [0]
  rhsNonContracting := [1]
  lhsBatch := []
  rhsBatch := []
  wf := dot_S1024x2000_S2000x64_S1024x64_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x64 : Shape := ⟨2, ![16384, 64]⟩
abbrev S16384x2000 : Shape := ⟨2, ![16384, 2000]⟩
abbrev S64x64 : Shape := ⟨2, ![64, 64]⟩
abbrev S2000x64 : Shape := ⟨2, ![2000, 64]⟩
abbrev S_ : Shape := ⟨0, ![]⟩
abbrev S16384 : Shape := ⟨1, ![16384]⟩
abbrev S16384x1 : Shape := ⟨2, ![16384, 1]⟩

abbrev nBuf : Space → Nat
  | .hbm => 18
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x2000, .i32⟩
  | .hbm, ⟨2, _⟩ => ⟨S64x64, .f32⟩
  | .hbm, ⟨3, _⟩ => ⟨S2000x64, .f32⟩
  | .hbm, ⟨4, _⟩ => ⟨S16384x64, .f32⟩
  | .hbm, ⟨5, _⟩ => ⟨S_, .i32⟩
  | .hbm, ⟨6, _⟩ => ⟨S16384x2000, .i32⟩
  | .hbm, ⟨7, _⟩ => ⟨S16384x2000, .i1⟩
  | .hbm, ⟨8, _⟩ => ⟨S16384x2000, .f32⟩
  | .hbm, ⟨9, _⟩ => ⟨S16384x64, .f32⟩
  | .hbm, ⟨10, _⟩ => ⟨S16384x64, .f32⟩
  | .hbm, ⟨11, _⟩ => ⟨S16384x64, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  bcast_S_S16384x2000 : S_.BroadcastsInDim S16384x2000 (![] : Fin 0 → Fin S16384x2000.rank)
  reducesTo_S16384x64_S16384_d1 : S16384x64.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  dot_S16384x64_S64x64_S16384x64_1_0_0_1_n_n_wf : DotDims.WF S16384x64 S64x64 S16384x64 [1] [0] [0] [1] [] []
  dot_S16384x2000_S2000x64_S16384x64_1_0_0_1_n_n_wf : DotDims.WF S16384x2000 S2000x64 S16384x64 [1] [0] [0] [1] [] []

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x2000_S2000x64_S16384x64_1_0_0_1_n_n : DotDims S16384x2000 S2000x64 S16384x64 where
  lhsContracting := [1]
  rhsContracting := [0]
  lhsNonContracting := [0]
  rhsNonContracting := [1]
  lhsBatch := []
  rhsBatch := []
  wf := dot_S16384x2000_S2000x64_S16384x64_1_0_0_1_n_n_wf

class Facts : Prop extends Facts₀ where

variable [Facts]
-- ==== Proof.Score.lean ====
/-
  The second-order score of a factorization machine, row by row, as one function of the four arrays.

  For a row n of the batch, the embedding sum of the row is, in each of the 64 embedding coordinates q,

      e(n, q) = Σ_{k < 64} x(n, k) · Wc(k, q)  +  Σ_{k < 2000} [cat(n, k) ≠ 0] · Wk(k, q)

  (the continuous fields weighted by their embeddings, plus the embeddings of the categories the row's multi-hot word
  marks), and the score of the row is one half of the squared length of that sum,

      score(n) = ½ · Σ_{q < 64} e(n, q) · e(n, q).

  Everything is read on the extended reals, where every float format is the same set and a change of format is the
  identity. The definitions take the number of rows as a parameter, so that the same function is spoken of for a block
  of rows and for the whole batch; a block's score at its row p is the batch's score at the row the block's row p is
  (score_congr).
-/
import Idealize.ShloMosaic.PureOps.Ideal
import Idealize.ShloMosaic.Lib.ValueIdx

noncomputable section

open scoped BigOperators

namespace Cert.FM

open Idealize.ShloMosaic Idealize.ShloMosaic.ValueIdx

/-- The multi-hot indicator of one category word: the one-bit answer of "the word is not zero", read unsigned as an
    extended real, so 1 where the word is nonzero and 0 where it is zero. -/
def hot (w : BitVec 32) : EReal := FloatOps.uitofp (F := Ideal) .f32 (IntOp.cmpi .ne w 0#32)

/-- A one-bit word widened to 32 bits with zeros and read signed is the bit read unsigned: both are 0 or 1. -/
theorem toInt_setWidth_bit (b : BitVec 1) : ((b.setWidth 32).toInt : ℝ) = (b.toNat : ℝ) := by
  rcases BitVec.eq_zero_or_eq_one b with rfl | rfl <;> simp

/-- The same indicator when the one-bit answer is first widened to 32 bits with zeros and then read signed. -/
theorem hot_signed (w : BitVec 32) :
    FloatOps.sitofp (F := Ideal) .f32 ((IntOp.cmpi .ne w 0#32).setWidth 32) = hot w := by
  unfold hot
  show (((BitVec.setWidth 32 (IntOp.cmpi .ne w 0#32)).toInt : ℝ) : EReal) = (((IntOp.cmpi .ne w 0#32).toNat : ℝ) : EReal)
  rw [toInt_setWidth_bit]

variable {N : ℕ}

/-- Coordinate q of the embedding sum of row n. -/
def emb (x : (⟨2, ![N, 64]⟩ : Shape).Idx → EReal) (cat : (⟨2, ![N, 2000]⟩ : Shape).Idx → BitVec 32)
    (wc : (⟨2, ![64, 64]⟩ : Shape).Idx → EReal) (wk : (⟨2, ![2000, 64]⟩ : Shape).Idx → EReal) (n : Fin N) (q : Fin 64) : EReal :=
  (∑ k : Fin 64, x (ix2 n k) * wc (ix2 k q)) + ∑ k : Fin 2000, hot (cat (ix2 n k)) * wk (ix2 k q)

/-- The score of row n: one half (the f32 word of 0.5) of the sum of the squares of the embedding sum's coordinates. -/
def score (x : (⟨2, ![N, 64]⟩ : Shape).Idx → EReal) (cat : (⟨2, ![N, 2000]⟩ : Shape).Idx → BitVec 32)
    (wc : (⟨2, ![64, 64]⟩ : Shape).Idx → EReal) (wk : (⟨2, ![2000, 64]⟩ : Shape).Idx → EReal) (n : Fin N) : EReal :=
  Ideal.ofBits .f32 0x3F000000#32 * ∑ q : Fin 64, emb x cat wc wk n q * emb x cat wc wk n q

/-- The score of a row depends on that row's entries only: if row p of (x, cat) is, entry by entry, row n of
    (X, CAT), the two scores agree, whatever the two row counts. -/
theorem score_congr {M : ℕ} (x : (⟨2, ![N, 64]⟩ : Shape).Idx → EReal) (cat : (⟨2, ![N, 2000]⟩ : Shape).Idx → BitVec 32)
    (X : (⟨2, ![M, 64]⟩ : Shape).Idx → EReal) (CAT : (⟨2, ![M, 2000]⟩ : Shape).Idx → BitVec 32)
    (wc : (⟨2, ![64, 64]⟩ : Shape).Idx → EReal) (wk : (⟨2, ![2000, 64]⟩ : Shape).Idx → EReal) (p : Fin N) (n : Fin M)
    (hx : ∀ k : Fin 64, x (ix2 p k) = X (ix2 n k)) (hc : ∀ k : Fin 2000, cat (ix2 p k) = CAT (ix2 n k)) :
    score x cat wc wk p = score X CAT wc wk n := by
  unfold score emb
  simp only [hx, hc]

/-- The scores of all rows as a vector [N]. -/
def scoreVec (x : (⟨2, ![N, 64]⟩ : Shape).Idx → EReal) (cat : (⟨2, ![N, 2000]⟩ : Shape).Idx → BitVec 32)
    (wc : (⟨2, ![64, 64]⟩ : Shape).Idx → EReal) (wk : (⟨2, ![2000, 64]⟩ : Shape).Idx → EReal) : (⟨1, ![N]⟩ : Shape).Idx → EReal :=
  fun i => score x cat wc wk ⟨(i 0).val, (i 0).isLt⟩

/-- The scores of all rows as a column [N, 1]. -/
def scoreCol (x : (⟨2, ![N, 64]⟩ : Shape).Idx → EReal) (cat : (⟨2, ![N, 2000]⟩ : Shape).Idx → BitVec 32)
    (wc : (⟨2, ![64, 64]⟩ : Shape).Idx → EReal) (wk : (⟨2, ![2000, 64]⟩ : Shape).Idx → EReal) : (⟨2, ![N, 1]⟩ : Shape).Idx → EReal :=
  fun i => score x cat wc wk ⟨(i 0).val, (i 0).isLt⟩

end Cert.FM

end
-- ==== Proof.RefScore.lean ====
/-
  The reference computes the score: its result array, read at (n, 0), is the score of row n of its four arguments.

  The reference's program is a chain of whole-array operations: the two matrix products, their sum, its square, the sum
  of each row's 64 squares started from the zero word, a broadcast of the row sums to a column, and the product with the
  broadcast word of 0.5. Read at one index each is a sum or a product of its operands at indices computed from that
  index; composing the readings, the entry (n, 0) of the result is ½ · (0 + Σ_q e(n, q)²), and 0 + s = s on the extended reals.
-/
import proofs.«112715_j7189775253944_2_alg».proof.Proof.Gen.ReferenceIdeal.Read
import proofs.«112715_j7189775253944_2_alg».proof.Proof.Score

noncomputable section

open scoped BigOperators

namespace Cert.FM.Ref

open Cert.ReferenceIdeal Cert.ReferenceIdeal.Read Idealize.ShloMosaic Idealize.ShloMosaic.ValueIdx Cert.FM

/-- The last stage of the reference, read at (n, u), is the score of row n. -/
theorem stage_eq (x0 : (⟨S16384x64, .f32⟩ : BufTy).Contents (Elt Ideal)) (x1 : (⟨S16384x2000, .i32⟩ : BufTy).Contents (Elt Ideal))
    (x2 : (⟨S64x64, .f32⟩ : BufTy).Contents (Elt Ideal)) (x3 : (⟨S2000x64, .f32⟩ : BufTy).Contents (Elt Ideal))
    (n : Fin 16384) (u : Fin 1) :
    val_main_v10 (F := Ideal) x0 x1 x2 x3 (ix2 n u) = score (N := 16384) x0 x1 x2 x3 n := by
  -- the row sum of column entry (n, u) runs over the entries (n, q) of the squared array
  have e7 : ∀ q : Fin 64, idx_main_v7 (idx_main_v8 (ix2 n u)) q = ix2 n q := fun q => funext fun a => Fin.ext (by
    match a with | ⟨0, _⟩ => rfl | ⟨1, _⟩ => rfl)
  -- entry (n, q) of either product pairs row n of the left operand with column q of the right one
  have el0 : ∀ (q k : Fin 64), lidx_main_v0 (ix2 n q) k = ix2 n k := fun q k => funext fun a => Fin.ext (by
    match a with | ⟨0, _⟩ => rfl | ⟨1, _⟩ => rfl)
  have er0 : ∀ (q k : Fin 64), ridx_main_v0 (ix2 n q) k = ix2 k q := fun q k => funext fun a => Fin.ext (by
    match a with | ⟨0, _⟩ => rfl | ⟨1, _⟩ => rfl)
  have el4 : ∀ (q : Fin 64) (k : Fin 2000), lidx_main_v4 (ix2 n q) k = ix2 n k := fun q k => funext fun a => Fin.ext (by
    match a with | ⟨0, _⟩ => rfl | ⟨1, _⟩ => rfl)
  have er4 : ∀ (q : Fin 64) (k : Fin 2000), ridx_main_v4 (ix2 n q) k = ix2 k q := fun q k => funext fun a => Fin.ext (by
    match a with | ⟨0, _⟩ => rfl | ⟨1, _⟩ => rfl)
  rw [val_main_v10_apply, val_main_v9_apply, val_main_cst_0_apply, val_main_v8_apply, val_main_v7_apply, val_main_cst_apply]
  simp only [e7, val_main_v6_apply, val_main_v5_apply, val_main_v0_apply, val_main_v4_apply, el0, er0, el4, er4,
    val_main_v3_apply, val_main_v2_apply, val_main_v1_apply, val_main_c_apply, Ideal.mulf_def, Ideal.addf_def,
    Ideal.ofBits_def, Ideal.ofBits_zero_f32, zero_add]
  rfl

end Cert.FM.Ref

end
-- ==== Proof.LibPlainDot.lean ====
/-
  A plain matrix product read at an index, at the ideal instance.

  For a rank-2 contraction [a, K] · [K, b] → [a, b] (the left operand's axis 1 against the right operand's axis 0, no batch
  axis), the accumulate-into-zero matrix product and the host's dot_general are both, at the result index (p, q), the sum
  over k < K of lhs (p, k) · rhs (k, q): the contracted shape has one axis of extent K, so the sum over its indices is a
  sum over Fin K, and the operand indices the contraction names at (p, q) and k are (p, k) and (k, q). The four coordinate
  facts about a given dimension record (hl0, hl1, hr0, hr1) are taken as hypotheses: for a literal record each is a
  computation.
-/
import Idealize.ShloMosaic.PureOps.Ideal.Laws
import Idealize.ShloMosaic.Lib.ValueIdx

noncomputable section

namespace Cert.Lib.PlainDot

open Idealize.ShloMosaic Idealize.ShloMosaic.ValueIdx

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The sum over the contracted shape's indices of the products of the operands at the contraction's indices is the
    sum over k < K of lhs (p, k) · rhs (k, q). -/
theorem sum_contr (lhs : (⟨2, ![a, K]⟩ : Shape).Idx → EReal) (rhs : (⟨2, ![K, b]⟩ : Shape).Idx → EReal) (p : Fin a) (q : Fin b) :
    ∑ k : D.contr.Idx, lhs (D.lhsIdx (ix2 p q) k) * rhs (D.rhsIdx (ix2 p q) k) = ∑ k : Fin K, lhs (ix2 p k) * rhs (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 k q := funext fun ax => Fin.ext (by
    match ax with
    | ⟨0, _⟩ => exact (hr0 _ _).trans hk
    | ⟨1, _⟩ => exact hr1 _ _)
  rw [el, er]

/-- The matrix product accumulated into the zero splat, at (p, q). -/
theorem matmul_zero_apply (prec : Option ContractPrecision) (lhs : FVec Ideal (⟨2, ![a, K]⟩ : Shape) .f32) (rhs : FVec Ideal (⟨2, ![K, b]⟩ : Shape) .f32)
    (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans (sum_contr D hr hs hl0 hl1 hr0 hr1 lhs rhs p q)

/-- The host's dot_general, at (p, q). -/
theorem dotGeneral_apply (prec : Option ContractPrecision) (lhs : FVec Ideal (⟨2, ![a, K]⟩ : Shape) .f32) (rhs : FVec Ideal (⟨2, ![K, b]⟩ : Shape) .f32)
    (p : Fin a) (q : Fin b) :
    Host.dotGeneral D prec lhs rhs (ix2 p q) = ∑ k : Fin K, lhs (ix2 p k) * rhs (ix2 k q) :=
  (Ideal.dotGeneral_apply D prec .single lhs rhs (ix2 p q)).trans (sum_contr D hr hs hl0 hl1 hr0 hr1 lhs rhs p q)

end Cert.Lib.PlainDot

end
-- ==== Proof.LibRowRead.lean ====
/-
  Vector operations read at an index, at the ideal instance, for the shapes of a row-blocked kernel: a column
  [a, 1] broadcast along the lanes, a vector [a] cast to a column [a, 1], the sum of a row of an [a, b] block,
  four [a, 32] pieces joined along the lanes into [a, 128], and the matrix product into the zero splat for
  operands of any float format (a change of format is the identity on extended reals).
-/
import Idealize.ShloMosaic.PureOps.Ideal.Laws
import Idealize.ShloMosaic.Lib.ValueIdx
import Idealize.ShloMosaic.Lib.ValueLayout
import Idealize.ShloMosaic.Lib.Pipeline.Value
import proofs.«112715_j7189775253944_2_alg».proof.Proof.LibPlainDot

noncomputable section

namespace Cert.Lib.RowRead

open Idealize.ShloMosaic Idealize.ShloMosaic.ValueIdx

variable {α : Type}

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The reduced index p with lane k put back is (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The lane sum of an [a, b] block, at row p, is the sum over the b lanes of the block's row p. -/
theorem rowSum_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ) (hacc : acc = FKind.add.neutral φ hφ) (p : Fin a) :
    multiReduction .add [1] (⟨1, ![a]⟩ : Shape) src acc h hφ hacc (ix1 p) = ∑ k : Fin b, src (ix2 p k) := by
  rw [Ideal.multiReduction_add_single]
  exact Finset.sum_congr rfl fun k _ => by rw [lift_row]; rfl

/-- Four [a, 32] pieces joined along the lanes: lane 32 k + c of the result is lane c of piece k. -/
theorem concat4_apply {a : ℕ} (x0 x1 x2 x3 : (⟨2, ![a, 32]⟩ : Shape).Idx → α)
    (h : Shape.Concatenates (([⟨(⟨2, ![a, 32]⟩ : Shape), x0⟩, ⟨(⟨2, ![a, 32]⟩ : Shape), x1⟩, ⟨(⟨2, ![a, 32]⟩ : Shape), x2⟩, ⟨(⟨2, ![a, 32]⟩ : Shape), x3⟩] :
      List ((s : Shape) × (s.Idx → α))).map (·.1)) (⟨2, ![a, 128]⟩ : Shape) 1)
    (p : Fin a) (c : Fin 32) (k : Fin 4) (q : Fin 128) (hq : q.val = 32 * k.val + c.val) :
    concatenate (⟨2, ![a, 128]⟩ : Shape) 1 [⟨(⟨2, ![a, 32]⟩ : Shape), x0⟩, ⟨(⟨2, ![a, 32]⟩ : Shape), x1⟩, ⟨(⟨2, ![a, 32]⟩ : Shape), x2⟩, ⟨(⟨2, ![a, 32]⟩ : Shape), x3⟩] h (ix2 p q)
      = (![x0, x1, x2, x3] k) (ix2 p c) := by
  have hi : ∀ b : Fin (⟨2, ![a, 32]⟩ : Shape).rank, b.cast (rfl : (⟨2, ![a, 32]⟩ : Shape).rank = (⟨2, ![a, 128]⟩ : Shape).rank) ≠ (1 : Fin 2) →
      ((ix2 p c : (⟨2, ![a, 32]⟩ : Shape).Idx) b).val = ((ix2 p q : (⟨2, ![a, 128]⟩ : Shape).Idx) (b.cast rfl)).val := by
    intro b hb
    match b with
    | ⟨0, _⟩ => rfl
    | ⟨1, _⟩ => exact absurd rfl hb
  fin_cases k
  · exact concatenate_apply_piece 1 _ h _ 0 (by simp) _ x0 rfl rfl 0 rfl (ix2 p c) hi (by show 0 + c.val = q.val; simp at hq; omega)
  · exact concatenate_apply_piece 1 _ h _ 1 (by simp) _ x1 rfl rfl 32 rfl (ix2 p c) hi (by show 32 + c.val = q.val; simp at hq; omega)
  · exact concatenate_apply_piece 1 _ h _ 2 (by simp) _ x2 rfl rfl 64 rfl (ix2 p c) hi (by show 64 + c.val = q.val; simp at hq; omega)
  · exact concatenate_apply_piece 1 _ h _ 3 (by simp) _ x3 rfl rfl 96 rfl (ix2 p c) hi (by show 96 + c.val = q.val; simp at hq; omega)

section Dot

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The matrix product into the zero splat, at (p, q), for operands of any float formats: the sum over k < K of
    lhs (p, k) · rhs (k, q). -/
theorem matmul_zero_apply {φ₁ φ₂ : FTy} (prec : Option ContractPrecision) (lhs : FVec Ideal (⟨2, ![a, K]⟩ : Shape) φ₁)
    (rhs : FVec Ideal (⟨2, ![K, b]⟩ : Shape) φ₂) (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans
    (Cert.Lib.PlainDot.sum_contr D hr hs hl0 hl1 hr0 hr1 (fun i => lhs i) (fun i => rhs i) p q)

end Dot

end Cert.Lib.RowRead

end
-- ==== Proof.BodyScore.lean ====
/-
  The kernel body computes the score of its block: what the body stores for row p of its 1024-row block is the score of
  row p of the four blocks it loaded.

  The body narrows the continuous block and multiplies it with the continuous embeddings into a zero accumulator; it
  compares the category block with zero, widens the one-bit answers to 32 bits with zeros, reads them signed as floats,
  narrows them and multiplies them with the category embeddings into a zero accumulator; it adds the two products,
  squares the sum entry by entry, sums each row's 64 lanes, and multiplies by the splat word of 0.5. On the extended
  reals the narrowings are the identity, a product into a zero accumulator at (p, q) is Σ_k lhs(p, k) · rhs(k, q), the lane
  sum at p is Σ_q of the row's entries, and the widened bit read signed is the bit read unsigned.
-/
import proofs.«112715_j7189775253944_2_alg».proof.Proof.Gen.KernelIdeal.Skeleton
import proofs.«112715_j7189775253944_2_alg».proof.Proof.LibRowRead
import proofs.«112715_j7189775253944_2_alg».proof.Proof.Score

noncomputable section

open scoped BigOperators

namespace Cert.FM.Body

open Cert.KernelIdeal Cert.KernelIdeal.Gen Idealize.ShloMosaic Idealize.ShloMosaic.ValueIdx Cert.FM

/-! ## The two contractions pair (p, k) with (k, q) -/

/-- The continuous product [1024, 64] · [64, 64]. -/
abbrev Dc := dot_S1024x64_S64x64_S1024x64_1_0_0_1_n_n
/-- The category product [1024, 2000] · [2000, 64]. -/
abbrev Dk := dot_S1024x2000_S2000x64_S1024x64_1_0_0_1_n_n

theorem Dc_l0 (i : S1024x64.Idx) (q : Dc.contr.Idx) : (Dc.lhsIdx i q 0).val = (i 0).val := by
  unfold DotDims.lhsIdx
  rw [dif_neg (show ¬(0 : Fin S1024x64.rank) ∈ Dc.lhsBatch by decide), dif_pos (show (0 : Fin S1024x64.rank) ∈ Dc.lhsNonContracting by decide)]
  rfl
theorem Dc_l1 (i : S1024x64.Idx) (q : Dc.contr.Idx) : (Dc.lhsIdx i q 1).val = (q ⟨0, by decide⟩).val :=
  Dc.lhsIdx_val_of_single rfl i q
theorem Dc_r0 (i : S1024x64.Idx) (q : Dc.contr.Idx) : (Dc.rhsIdx i q 0).val = (q ⟨0, by decide⟩).val :=
  Dc.rhsIdx_val_of_single rfl i q
theorem Dc_r1 (i : S1024x64.Idx) (q : Dc.contr.Idx) : (Dc.rhsIdx i q 1).val = (i 1).val := by
  unfold DotDims.rhsIdx
  rw [dif_neg (show ¬(1 : Fin S64x64.rank) ∈ Dc.rhsBatch by decide), dif_pos (show (1 : Fin S64x64.rank) ∈ Dc.rhsNonContracting by decide)]
  rfl

theorem Dk_l0 (i : S1024x64.Idx) (q : Dk.contr.Idx) : (Dk.lhsIdx i q 0).val = (i 0).val := by
  unfold DotDims.lhsIdx
  rw [dif_neg (show ¬(0 : Fin S1024x2000.rank) ∈ Dk.lhsBatch by decide), dif_pos (show (0 : Fin S1024x2000.rank) ∈ Dk.lhsNonContracting by decide)]
  rfl
theorem Dk_l1 (i : S1024x64.Idx) (q : Dk.contr.Idx) : (Dk.lhsIdx i q 1).val = (q ⟨0, by decide⟩).val :=
  Dk.lhsIdx_val_of_single rfl i q
theorem Dk_r0 (i : S1024x64.Idx) (q : Dk.contr.Idx) : (Dk.rhsIdx i q 0).val = (q ⟨0, by decide⟩).val :=
  Dk.rhsIdx_val_of_single rfl i q
theorem Dk_r1 (i : S1024x64.Idx) (q : Dk.contr.Idx) : (Dk.rhsIdx i q 1).val = (i 1).val := by
  unfold DotDims.rhsIdx
  rw [dif_neg (show ¬(1 : Fin S2000x64.rank) ∈ Dk.rhsBatch by decide), dif_pos (show (1 : Fin S2000x64.rank) ∈ Dk.rhsNonContracting by decide)]
  rfl

/-! ## The two products at (p, q) -/

/-- The continuous part of the embedding sum: Σ_k x(p, k) · Wc(k, q). -/
theorem cont_part (x0 : Vec Ideal S1024x64 .f32) (x2 : Vec Ideal S64x64 .bf16) (p : Fin 1024) (q : Fin 64) :
    matmul Dc none (truncf .bf16 x0 bitsLt_bf16_f32) (shapeCast S64x64 x2 shapeCasts_S64x64_S64x64 : FVec Ideal S64x64 .bf16)
        (constant (F := Ideal) S1024x64 .f32 0x00000000#32) (ix2 p q)
      = ∑ k : Fin 64, x0 (ix2 p k) * x2 (ix2 k q) := by
  rw [shapeCast_self]
  exact Cert.Lib.RowRead.matmul_zero_apply Dc rfl rfl Dc_l0 Dc_l1 Dc_r0 Dc_r1 none _ _ p q

/-- The category part: Σ_k [cat(p, k) ≠ 0] · Wk(k, q). -/
theorem cat_part (x1 : Vec Ideal S1024x2000 .i32) (x3 : Vec Ideal S2000x64 .bf16) (p : Fin 1024) (q : Fin 64) :
    matmul Dk none
        (truncf .bf16 (sitofp (F := Ideal) .f32 (extui 32 (cmpi .ne x1 (broadcast S1024x2000 0#32)) natLt_1_32)) bitsLt_bf16_f32)
        (shapeCast S2000x64 x3 shapeCasts_S2000x64_S2000x64 : FVec Ideal S2000x64 .bf16) (constant (F := Ideal) S1024x64 .f32 0x00000000#32) (ix2 p q)
      = ∑ k : Fin 2000, hot (x1 (ix2 p k)) * x3 (ix2 k q) := by
  rw [shapeCast_self]
  refine (Cert.Lib.RowRead.matmul_zero_apply (φ₁ := .bf16) (φ₂ := .bf16) Dk rfl rfl Dk_l0 Dk_l1 Dk_r0 Dk_r1 none _ x3 p q).trans ?_
  exact Finset.sum_congr rfl fun k _ => congrArg (· * x3 (ix2 k q)) (hot_signed (x1 (ix2 p k)))

/-! ## The stored value at row p -/

/-- What the body stores at row p is the score of row p of its four blocks. -/
theorem pay_row (x0 : Vec Ideal S1024x64 .f32) (x2 : Vec Ideal S64x64 .bf16) (x1 : Vec Ideal S1024x2000 .i32)
    (x3 : Vec Ideal S2000x64 .bf16) (p : Fin 1024) :
    k0_pay1 (F := Ideal) x0 x2 x1 x3 (ix1 p) = score (N := 1024) x0 x1 x2 x3 p := by
  unfold k0_pay1
  dsimp only
  refine (mulf_apply _ _ (ix1 p)).trans ?_
  refine congrArg (Ideal.ofBits .f32 0x3F000000#32 * ·) ?_
  refine (Cert.Lib.RowRead.rowSum_apply _ _ _ _ _ p).trans ?_
  refine Finset.sum_congr rfl fun q _ => ?_
  refine (mulf_apply _ _ (ix2 p q)).trans ?_
  have e : ∀ A B : FVec Ideal S1024x64 .f32, addf A B (ix2 p q) = A (ix2 p q) + B (ix2 p q) := fun _ _ => rfl
  rw [e, cont_part, cat_part]
  rfl

end Cert.FM.Body

end
-- ==== Proof.KernelArray.lean ====
/-
  From the blocks to the array: the array the region writes ends holding the score of every row of the arrays the
  region reads.

  The region runs the body at 16 points. At point t the body reads rows 1024·t … 1024·t + 1023 of the continuous and of the
  category array (all 64, all 2000 columns) and the two embedding arrays whole, and what it leaves is written back to
  entries 1024·t … 1024·t + 1023 of the output vector. A row's score depends on that row's entries only, so what point t
  writes back is the vector of all rows' scores read through point t's entries; the 16 ranges of 1024 entries cover the
  16384 entries (entry r lies in range r / 1024), so the output array ends holding the vector of scores. The two embedding
  arrays the region reads are the arguments' narrowed to a shorter format before the region, which on the extended
  reals changes nothing.
-/
import proofs.«112715_j7189775253944_2_alg».proof.Proof.Gen.KernelIdeal.Frame
import proofs.«112715_j7189775253944_2_alg».proof.Proof.BodyScore
import Idealize.ShloMosaic.Lib.Pipeline.Value
import Idealize.ShloMosaic.Lib.StableHlo.Run
import Idealize.ShloMosaic.Lib.Tactic

noncomputable section

namespace Cert.FM.Kernel

open Cert.KernelIdeal Cert.KernelIdeal.Gen Idealize.ShloMosaic Idealize.ShloMosaic.TcCoe Idealize.SL.Sem
open Idealize.ShloMosaic.ValueIdx Cert.FM
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl

/-- The vector of scores of the four arrays as the region finds them. -/
def regionOut (c : Dev nD) : S16384.Idx → EReal :=
  scoreVec (N := 16384) (V m c main_arg0 : S16384x64.Idx → EReal) (V m c main_arg1 : S16384x2000.Idx → BitVec 32)
    (V m c main_v0 : S64x64.Idx → EReal) (V m c main_v1 : S2000x64.Idx → EReal)

/-- Where each window's block sits at point t: the two row-blocked inputs and the output at block t of their rows (and
    at column block 0), the two embedding arrays at block (0, 0). Decided over the 16 points. -/
theorem idx_facts : ∀ t : Fin cfg0.N, win0_0.index t (0 : Fin 2) = win0_4.index t (0 : Fin 1) ∧ win0_0.index t (1 : Fin 2) = 0
    ∧ win0_1.index t (0 : Fin 2) = win0_4.index t (0 : Fin 1) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = t.val :=
  (by decide +kernel : ∀ t : Fin grid0.N, _)

/-- One stored entry: if the four loaded blocks are rows b·1024 … of the two row-blocked arrays and the two embedding
    arrays whole, the body's value at entry y of its block is the score of the array row b·1024 + y. -/
theorem block_row (X0 : S16384x64.Idx → EReal) (X1 : S16384x2000.Idx → BitVec 32) (W0 : S64x64.Idx → EReal) (W1 : S2000x64.Idx → EReal)
    (x0 : Vec Ideal S1024x64 .f32) (x1 : Vec Ideal S1024x2000 .i32) (x2 : Vec Ideal S64x64 .bf16) (x3 : Vec Ideal S2000x64 .bf16)
    (b : ℕ) (y : S1024.Idx) (i : S16384.Idx) (hi : (i 0).val = b * 1024 + 1 * (y 0).val)
    (h0 : ∀ (a : S1024x64.Idx) (a' : S16384x64.Idx), (a' 0).val = b * 1024 + 1 * (a 0).val → (a' 1).val = (a 1).val → x0 a = X0 a')
    (h1 : ∀ (a : S1024x2000.Idx) (a' : S16384x2000.Idx), (a' 0).val = b * 1024 + 1 * (a 0).val → (a' 1).val = (a 1).val → x1 a = X1 a')
    (h2 : x2 = W0) (h3 : x3 = W1) :
    k0_pay1 (F := Ideal) x0 x2 x1 x3 y = scoreVec (N := 16384) X0 X1 W0 W1 i := by
  obtain ⟨p, rfl⟩ : ∃ p : Fin 1024, y = ix1 p := ⟨y 0, eq_ix1 y⟩
  subst h2 h3
  rw [Body.pay_row]
  exact score_congr x0 x1 X0 X1 x2 x3 p ⟨(i 0).val, (i 0).isLt⟩ (fun k => h0 (ix2 p k) (ix2 ⟨(i 0).val, (i 0).isLt⟩ k) hi rfl)
    (fun k => h1 (ix2 p k) (ix2 ⟨(i 0).val, (i 0).isLt⟩ k) hi rfl)

/-- What point t writes back is the vector of scores read through point t's entries. -/
theorem flushed_eq (c : Dev nD) (t : Fin cfg0.N) :
    (dats m 0 c).flushed 4 t = ((cfg0.win 4).blk t).view.read (Elt Ideal) (regionOut m c) := by
  show (cfg0.win 4).cut (grid0.coords t) ((dats m 0 c).after 4 t) = _
  rw [after0_4]
  unfold out0_4
  rw [View.canon_unit_zero hz1]
  simp only [View.ld_unit_zero (S := S1024x64) hz2, View.ld_unit_zero (S := S64x64) hz2,
    View.ld_unit_zero (S := S1024x2000) hz2, View.ld_unit_zero (S := S2000x64) hz2]
  obtain ⟨e00, e01, e10, e11, e20, e21, e30, e31, -⟩ := idx_facts t
  funext j
  show k0_pay1 (F := Ideal) (iblk m c 0 t) (iblk m c 2 t) (iblk m c 1 t) (iblk m c 3 t) j = regionOut m c (((cfg0.win 4).blk t).view.emb j)
  refine block_row _ _ _ _ _ _ _ _ (win0_4.index t (0 : Fin 1)) j _ rfl ?_ ?_ ?_ ?_
  · intro a a' ha0 ha1
    show V m c main_arg0 (((cfg0.win 0).blk t).view.emb a) = V m c main_arg0 a'
    refine congrArg _ (funext fun ax => Fin.ext ?_)
    match ax with
    | ⟨0, _⟩ => show win0_0.index t (0 : Fin 2) * 1024 + 1 * (a 0).val = (a' 0).val; omega
    | ⟨1, _⟩ => show win0_0.index t (1 : Fin 2) * 64 + 1 * (a 1).val = (a' 1).val; omega
  · intro a a' ha0 ha1
    show V m c main_arg1 (((cfg0.win 1).blk t).view.emb a) = V m c main_arg1 a'
    refine congrArg _ (funext fun ax => Fin.ext ?_)
    match ax with
    | ⟨0, _⟩ => show win0_1.index t (0 : Fin 2) * 1024 + 1 * (a 0).val = (a' 0).val; omega
    | ⟨1, _⟩ => show win0_1.index t (1 : Fin 2) * 2000 + 1 * (a 1).val = (a' 1).val; omega
  · funext a
    show V m c main_v0 (((cfg0.win 2).blk t).view.emb a) = V m c main_v0 a
    refine congrArg _ (funext fun ax => Fin.ext ?_)
    match ax with
    | ⟨0, _⟩ => show win0_2.index t (0 : Fin 2) * 64 + 1 * (a 0).val = (a 0).val; omega
    | ⟨1, _⟩ => show win0_2.index t (1 : Fin 2) * 64 + 1 * (a 1).val = (a 1).val; omega
  · funext a
    show V m c main_v1 (((cfg0.win 3).blk t).view.emb a) = V m c main_v1 a
    refine congrArg _ (funext fun ax => Fin.ext ?_)
    match ax with
    | ⟨0, _⟩ => show win0_3.index t (0 : Fin 2) * 2000 + 1 * (a 0).val = (a 0).val; omega
    | ⟨1, _⟩ => show win0_3.index t (1 : Fin 2) * 64 + 1 * (a 1).val = (a 1).val; omega

/-- An entry of the output vector is in point t's range iff it lies between 1024·(t's block) and 1024 more. -/
theorem mem_blk (t : Fin cfg0.N) (i : S16384.Idx) :
    i ∈ ((cfg0.win 4).blk t).view.set ↔ ∀ a : Fin 1, win0_4.index t a * S1024.size a ≤ (i a).val ∧ (i a).val < win0_4.index t a * S1024.size a + S1024.size a := by
  show i ∈ ((View.whole main_v2).slice (win0_4.rect t)).set ↔ _
  rw [View.set_slice_whole, Rect.mem_set_unit]
  exact Iff.rfl

/-- Every entry r of the output vector is written back by the point r / 1024. -/
theorem cover (i : S16384.Idx) : ∃ t : Fin cfg0.N, (cfg0.win 4).flush t = true ∧ i ∈ ((cfg0.win 4).blk t).view.set := by
  have hi : (i 0).val < 16384 := (i 0).isLt
  have hN : cfg0.N = 16 := N_0
  refine ⟨⟨(i 0).val / 1024, by rw [hN]; omega⟩, flush0_4 _, ?_⟩
  rw [mem_blk]
  intro a
  have ht := (idx_facts ⟨(i 0).val / 1024, by rw [hN]; omega⟩).2.2.2.2.2.2.2.2
  match a with
  | ⟨0, _⟩ =>
    show win0_4.index ⟨(i 0).val / 1024, _⟩ (0 : Fin 1) * 1024 ≤ (i 0).val ∧ (i 0).val < win0_4.index ⟨(i 0).val / 1024, _⟩ (0 : Fin 1) * 1024 + 1024
    rw [ht]
    show (i 0).val / 1024 * 1024 ≤ (i 0).val ∧ (i 0).val < (i 0).val / 1024 * 1024 + 1024
    omega

/-- The output array after the region: the vector of scores of the arrays the region found. -/
theorem region_array (c : Dev nD) : (dats m 0 c).arrAt 4 cfg0.N = regionOut m c :=
  (dats m 0 c).arrAt_eq_of_cover 4 (regionOut m c) (fun t _ => flushed_eq m c t) (cover)

/-! ## The arrays the region finds -/

/-- The continuous embeddings the region reads are the argument's (narrowed before the region: the identity here). -/
theorem V_wc (c : Dev nD) : (V m c main_v0 : S64x64.Idx → EReal) = m ((c : Thread nD τ).loc main_arg2) := by
  show StableHlo.after hostOps0 (fun b => m (c, b)) (Proc.devRef .tc main_v0) = _
  after_results
  rfl

/-- The category embeddings the region reads are the argument's. -/
theorem V_wk (c : Dev nD) : (V m c main_v1 : S2000x64.Idx → EReal) = m ((c : Thread nD τ).loc main_arg3) := by
  show StableHlo.after hostOps0 (fun b => m (c, b)) (Proc.devRef .tc main_v1) = _
  after_results
  rfl

/-- So the output array after the region is the vector of scores of the four ARGUMENTS. -/
theorem region_array_args (c : Dev nD) : (dats m 0 c).arrAt 4 cfg0.N
    = scoreVec (N := 16384) (m ((c : Thread nD τ).loc main_arg0)) (m ((c : Thread nD τ).loc main_arg1))
        (m ((c : Thread nD τ).loc main_arg2)) (m ((c : Thread nD τ).loc main_arg3)) := by
  rw [region_array]
  unfold regionOut
  rw [V_wc, V_wk, V_main_arg0, V_main_arg1]

end Cert.FM.Kernel

end
-- ==== Proof.Result.lean ====
/-
  The kernel's result: after the region one more line turns the vector of scores [16384] into the column [16384, 1]
  (entry (n, 0) of the column is entry n of the vector), so the program's result is the column of scores of its four
  arguments; and the run, with that result named and the arguments unchanged.
-/
import proofs.«112715_j7189775253944_2_alg».proof.Proof.KernelArray

noncomputable section

namespace Cert.FM.Kernel

open Cert.KernelIdeal Cert.KernelIdeal.Gen Idealize.ShloMosaic Idealize.ShloMosaic.TcCoe Idealize.SL.Sem
open Idealize.ShloMosaic.ValueIdx Cert.FM
open Idealize.ShloMosaic.Pipeline (Dat)

variable (m : (ℓ : Loc nD τ sig) → Buf (Elt Ideal) ℓ) (ρ : Dev nD → PrngReg)

/-- The column of scores of the four arguments. -/
def result (c : Dev nD) : S16384x1.Idx → EReal :=
  scoreCol (N := 16384) (m ((c : Thread nD τ).loc main_arg0)) (m ((c : Thread nD τ).loc main_arg1))
    (m ((c : Thread nD τ).loc main_arg2)) (m ((c : Thread nD τ).loc main_arg3))

/-- What the line after the region leaves in the result buffer: the vector of scores the region wrote, broadcast to a
    column, which at (n, u) reads the vector at n. -/
theorem tail_eq (c : Dev nD) :
    Pipeline.afterTail₀ cfgs (dats m) 0 (V0 m) [hostOps1] c main_v3 = result m c := by
  unfold Pipeline.afterTail₀
  show StableHlo.after hostOps1 _ (Proc.devRef .tc main_v3) = _
  after_results
  have hv : Pipeline.withArrays (cfgs 0).spec c (V0 m c) (fun w => (dats m 0 c).arrAt w (cfgs 0).N) (Proc.devRef .tc main_v2)
      = scoreVec (N := 16384) (m ((c : Thread nD τ).loc main_arg0)) (m ((c : Thread nD τ).loc main_arg1))
          (m ((c : Thread nD τ).loc main_arg2)) (m ((c : Thread nD τ).loc main_arg3)) :=
    (Pipeline.withArrays_arr spec0 launch0.win.arr_inj c _ _ 4).trans (region_array_args m c)
  refine (congrArg (broadcastInDim S16384x1 ![0] bcast_S16384_S16384x1_0) hv).trans ?_
  funext i
  obtain ⟨n, u, rfl⟩ : ∃ (n : Fin 16384) (u : Fin 1), i = ix2 n u := ⟨i 0, i 1, eq_ix2 i⟩
  refine (broadcastInDim_apply _ bcast_S16384_S16384x1_0 _ (ix2 n u) (ix1 n) (fun a => ?_)).trans rfl
  match a with
  | ⟨0, _⟩ => show n.val = if (16384 : Nat) = 1 then 0 else n.val; rw [if_neg (by decide)]

/-- The run of the idealized kernel: every weakly fair execution terminates with the result buffer at the column of
    scores of the arguments, and the arguments as they were. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.FM.Kernel

end
-- ==== Proof.lean ====
/-
  The second-order score of a factorization machine: a row-blocked kernel against its whole-array reference, equal on
  the extended reals.

  Both programs take a continuous array x [16384, 64], a multi-hot category array cat [16384, 2000] of 32-bit words, and
  two embedding arrays Wc [64, 64] and Wk [2000, 64], and return the column [16384, 1] whose entry (n, 0) is

      ½ · Σ_{q < 64} ( Σ_{k < 64} x(n, k) · Wc(k, q)  +  Σ_{k < 2000} [cat(n, k) ≠ 0] · Wk(k, q) )².

  The kernel narrows the two embedding arrays to a shorter float format, runs a body over 16 blocks of 1024 rows (two
  matrix products into zero accumulators, their sum squared, a sum along the 64 lanes, a product with 0.5) that writes a
  vector [16384], and casts the vector to a column. The reference computes the same with two whole-array products, a
  row sum started from zero and a broadcast 0.5. On the extended reals a change of float format is the identity and
  every operation is exact, so the two differ only in how the indicator [cat ≠ 0] is spelt (the one-bit answer widened
  with zeros and read signed, against the bit read unsigned: both 0 or 1), in the zero the reference's row sum starts
  from, and in the blocking, which a row's score does not see. No law that needs finiteness is used, so the
  precondition is never opened.

  The modules: Score (the function, and that a row's score depends on that row only), RefScore (the reference's last
  stage read at an index is the score), BodyScore (what the body stores at a row of its block is the score of that row of
  the loaded blocks), KernelArray (the 16 write-backs cover the output vector, which ends holding all rows' scores of the
  arguments), Result (the cast to a column, and the kernel's run with its result named). Here: the three frames — each
  program terminates without fault and leaves its arguments unchanged —, the empty list of idealization steps, and the
  equality of the two results.
-/
import proofs.«112715_j7189775253944_2_alg».proof.Defs
import proofs.«112715_j7189775253944_2_alg».proof.Proof.Gen.Kernel
import proofs.«112715_j7189775253944_2_alg».proof.Proof.Gen.Kernel.Skeleton
import proofs.«112715_j7189775253944_2_alg».proof.Proof.Gen.Kernel.Launch
import proofs.«112715_j7189775253944_2_alg».proof.Proof.Gen.Kernel.Points
import proofs.«112715_j7189775253944_2_alg».proof.Proof.Gen.Kernel.Frame
import proofs.«112715_j7189775253944_2_alg».proof.Proof.Gen.KernelIdeal
import proofs.«112715_j7189775253944_2_alg».proof.Proof.Gen.KernelIdeal.Skeleton
import proofs.«112715_j7189775253944_2_alg».proof.Proof.Gen.KernelIdeal.Launch
import proofs.«112715_j7189775253944_2_alg».proof.Proof.Gen.KernelIdeal.Points
import proofs.«112715_j7189775253944_2_alg».proof.Proof.Gen.KernelIdeal.Frame
import proofs.«112715_j7189775253944_2_alg».proof.Proof.Gen.ReferenceIdeal
import proofs.«112715_j7189775253944_2_alg».proof.Proof.Gen.Pre_finite_inputs
import proofs.«112715_j7189775253944_2_alg».proof.Proof.Gen.ReferenceIdeal.Run
import proofs.«112715_j7189775253944_2_alg».proof.Proof.Gen.ReferenceIdeal.Read
import proofs.«112715_j7189775253944_2_alg».proof.Proof.RefScore
import proofs.«112715_j7189775253944_2_alg».proof.Proof.Result
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of whole-array operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories agreeing on the four arguments the idealized kernel ends with its result at the column of scores
    of its arguments, and the reference with its result at its last stage of its own arguments, which are the kernel's;
    that stage read at (n, u) is the score of row n. -/
theorem algebraic : Cert.algebraic_KernelIdeal_ReferenceIdeal := by
  intro m ρ m' ρ' _ hagree
  refine ⟨fun c => Cert.FM.Kernel.result m c, Cert.FM.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, (hagree c).1, (hagree c).2.1, (hagree c).2.2.1, (hagree c).2.2.2]
  funext i
  obtain ⟨n, u, rfl⟩ : ∃ (n : Fin 16384) (u : Fin 1), i = ix2 n u := ⟨i 0, i 1, eq_ix2 i⟩
  exact Cert.FM.Ref.stage_eq _ _ _ _ n u

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
